-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S1000000x128 : Shape := ⟨2, ![1000000, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S4096 32) (main_arg1 : FVec F S1000000x128 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg0 main_v4
  let main_c_1 : IVec S_ 32 := constantI S_ 32 999999#32
  let main_v6 : IVec S4096 32 := broadcastInDim S4096 ![] bcast_S_S4096 main_c_1
  let main_v7 : IVec S4096 1 := cmpi .sle main_arg0 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096 : Shape := ⟨1, ![4096]⟩
abbrev S1000000x128 : Shape := ⟨2, ![1000000, 128]⟩
abbrev S4096x128 : Shape := ⟨2, ![4096, 128]⟩
abbrev S256 : Shape := ⟨1, ![256]⟩
abbrev S256x128 : Shape := ⟨2, ![256, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S4096, .i32⟩
  | .hbm, ⟨1, _⟩ => ⟨S1000000x128, .f32⟩
  | .hbm, ⟨2, _⟩ => ⟨S4096x128, .f32⟩
  | .local .scVector .vmem, ⟨0, _⟩ => ⟨S256, .i32⟩
  | .local .scVector .vmem, ⟨1, _⟩ => ⟨S256x128, .f32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1000000x128_S1000000x128_0_0 : ∀ a, (![0, 0] : Fin 2 → Nat) a + S1000000x128.size a ≤ S1000000x128.size a
  gathers_S1000000x128_S256x128 : S1000000x128.Gathers 0 S256x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S4096.size a
  k0_off2_inb : ∀ i : grid0.Coords, ∀ a, (k0_off2 i) a + S256x128.size a ≤ S4096x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S4096 : Shape := ⟨1, ![4096]⟩
abbrev S1000000x128 : Shape := ⟨2, ![1000000, 128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096, .i32⟩
  | .hbm, ⟨1, _⟩ => ⟨S1000000x128, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S4096x128, .f32⟩
  | .hbm, ⟨21, _⟩ => ⟨S4096x128, .i1⟩
  | .hbm, ⟨22, _⟩ => ⟨S_, .f32⟩
  | .hbm, ⟨23, _⟩ => ⟨S4096x128, .f32⟩
  | .hbm, ⟨24, _⟩ => ⟨S4096x128, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  gather_S1000000x128_S4096x1_S4096x128_1_0_n_n_0_1_1128_wf : GatherDims.WF S1000000x128 S4096x1 S4096x128 [1] [0] [] [0] [] 1 ![1, 128]

variable [Facts₀]

def gather_S1000000x128_S4096x1_S4096x128_1_0_n_n_0_1_1128 : GatherDims S1000000x128 S4096x1 S4096x128 where
  offsetDims := [1]
  collapsedSliceDims := [0]
  operandBatchingDims := []
  startIndicesBatchingDims := []
  startIndexMap := [0]
  indexVectorDim := 1
  sliceSizes := ![1, 128]
  wf := gather_S1000000x128_S4096x1_S4096x128_1_0_n_n_0_1_1128_wf

class Facts : Prop extends Facts₀ where

variable [Facts]
-- ==== Proof.Spec.lean ====
/-
  The specification of the lookup, over literal shapes and with no program in sight.

  An embedding lookup takes a list `x` of 4096 row numbers and a table of 1000000 rows of 128 numbers, and
  returns the 4096 × 128 array whose row `i` is row `x[i]` of the table. The row number is read as an unsigned
  word and reduced modulo the number of rows, so that the function is total; on a list whose words are all
  below 1000000 (`InRange`) the reduction does nothing (`rowOf_eq`).
-/
import Idealize.ShloMosaic.Lib.ValueIdx

namespace Cert.Spec

open Idealize.ShloMosaic Idealize.ShloMosaic.ValueIdx

/-- The list of row numbers, the table, the result. -/
abbrev SI : Shape := ⟨1, ![4096]⟩
abbrev ST : Shape := ⟨2, ![1000000, 128]⟩
abbrev SO : Shape := ⟨2, ![4096, 128]⟩

/-- Every word of the list names a row of the table. -/
def InRange (x : IVec SI 32) : Prop := ∀ i : SI.Idx, (x i).toNat < 1000000

/-- The table's row that entry `i` of the list names. -/
def rowOf (x : IVec SI 32) (i : Fin 4096) : Fin 1000000 :=
  ⟨(x (ix1 i)).toNat % 1000000, Nat.mod_lt _ (by decide)⟩

theorem rowOf_val (x : IVec SI 32) (i : Fin 4096) : (rowOf x i).val = (x (ix1 i)).toNat % 1000000 := rfl

theorem rowOf_eq {x : IVec SI 32} (h : InRange x) (i : Fin 4096) : (rowOf x i).val = (x (ix1 i)).toNat :=
  Nat.mod_eq_of_lt (h _)

/-- The lookup: entry `(i, k)` of the result is entry `(x[i], k)` of the table. -/
def lookup {α : Type} (x : IVec SI 32) (tbl : ST.Idx → α) : SO.Idx → α :=
  fun j => tbl (ix2 (rowOf x (j 0)) (j 1))

theorem lookup_apply {α : Type} (x : IVec SI 32) (tbl : ST.Idx → α) (i : Fin 4096) (k : Fin 128) :
    lookup x tbl (ix2 i k) = tbl (ix2 (rowOf x i) k) := rfl

end Cert.Spec
-- ==== Proof.KBSetup.lean ====
/-
  The lookup kernel on the SparseCore: the names its proof is written over.

  One SparseCore runs the kernel; each of its sixteen vector subcores takes 256 consecutive entries of the
  list of row numbers (entries 256 i … 256 i + 255 for subcore i), fetches the table rows they name into a
  buffer of its own, and writes that buffer to rows 256 i … 256 i + 255 of the result. So the list and the
  result are cut into sixteen slabs along their first axis, one per subcore, and the table is read by all
  sixteen at once: each holds a sixteenth share of it, read-only.

  This module fixes the program as the launch theorem sees it, the ghost state (the handshakes' rounds beside
  the transfers' counters: the kernel's transfers are all local and each is waited for before the next is
  issued, so no schedule is needed), the slabs, and what the one call hands each subcore and takes back:
  its slab of the list, its share of the table, and its slab of the result — holding, on the way back, the
  looked-up rows.
-/
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic
import proofs.«211084_g50646254354559_cont_8to1_c_439_18_alg».proof.Proof.Gen.Kernel
import proofs.«211084_g50646254354559_cont_8to1_c_439_18_alg».proof.Proof.Gen.Kernel.Skeleton
import proofs.«211084_g50646254354559_cont_8to1_c_439_18_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The list of row numbers and the table (the arguments), the result, as locations of device `d`. -/
abbrev iLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

abbrev iV : Memref sig .scVector .hbm S4096 .i32 := Memref.whole main_arg0_scv
abbrev tV : Memref sig .scVector .hbm S1000000x128 .f32 := Memref.whole main_arg1_scv
abbrev oV : Memref sig .scVector .hbm S4096x128 .f32 := Memref.whole main_v0_scv
/-- A subcore's scratch: the fetched row numbers, the fetched rows. -/
abbrev sI : Memref sig .scVector .vmem S256 .i32 := Memref.whole cc0_scratch0
abbrev sR : Memref sig .scVector .vmem S256x128 .f32 := Memref.whole cc0_scratch1

/-- What the lookup makes of the launch memory of device `d`: row `i` of it is row `x[i]` of the table. -/
def want (d : Dev nD) : Buf (Elt F) (oLoc d) := Cert.Spec.lookup (m (iLoc d)) (m (tLoc d))

/-! ## The sixteen slabs -/

theorem hdivI : 16 ∣ S4096.size 0 := ⟨256, rfl⟩
theorem hdivO : 16 ∣ S4096x128.size 0 := ⟨256, rfl⟩
abbrev slabI (i : Fin 16) : Rect S4096 := Rect.part (s := S4096) (a₀ := 0) hdivI i
abbrev slabO (i : Fin 16) : Rect S4096x128 := Rect.part (s := S4096x128) (a₀ := 0) hdivO i
abbrev setI (i : Fin 16) : Finset S4096.Idx := ((iV : Memref sig .scVector .hbm S4096 .i32).view.slice (slabI i)).set
abbrev setO (i : Fin 16) : Finset S4096x128.Idx := ((oV : Memref sig .scVector .hbm S4096x128 .f32).view.slice (slabO i)).set

/-- A sixteenth of the whole: the share of the table each subcore reads through. -/
abbrev shr (i : Fin 16) : PosShare TreeShare := pieceOf fullShare 16 (by decide) i

/-! ## What the handshakes carry -/

abbrev iPts (d : Dev nD) : sProp 𝕄 := iLoc d ↦{fullShare} m (iLoc d)
abbrev tPts (d : Dev nD) : sProp 𝕄 := tLoc d ↦{fullShare} m (tLoc d)
abbrev oPts (d : Dev nD) (f : Buf (Elt F) (oLoc d)) : sProp 𝕄 := oLoc d ↦{fullShare} f
abbrev iSlab (d : Dev nD) (i : Fin 16) : sProp 𝕄 := iLoc d ↦[setI i]{fullShare} m (iLoc d)
abbrev tShare (d : Dev nD) (i : Fin 16) : sProp 𝕄 := tLoc d ↦{shr i} m (tLoc d)
abbrev oSlab (d : Dev nD) (i : Fin 16) (f : Buf (Elt F) (oLoc d)) : sProp 𝕄 := oLoc d ↦[setO i]{fullShare} f

/-- The one call takes the list, the table and the result whole; each subcore its slab of the list, its share of
    the table and its slab of the result; they come back with the result at the lookup. -/
def P : (K (F := F)).Pay (nD := nD) (Val := Elt F) (Name := ℕ) (U := UU) where
  st := fun q d _ => match q with | 0 => iprop(iPts m d ∗ tPts m d ∗ oPts d (m (oLoc d)))
  dn := fun q d _ => match q with | 0 => iprop(iPts m d ∗ tPts m d ∗ oPts d (want m d))
  go := fun q d _ i => match q with
    | 0 => iprop(iSlab m d (Fin.cast nSub_zero i) ∗ tShare m d (Fin.cast nSub_zero i) ∗ oSlab d (Fin.cast nSub_zero i) (m (oLoc d)))
  td := fun q d _ i => match q with
    | 0 => iprop(iSlab m d (Fin.cast nSub_zero i) ∗ tShare m d (Fin.cast nSub_zero i) ∗ oSlab d (Fin.cast nSub_zero i) (want m d))
  x := fun _ _ => iprop(emp)

instance P_storable : (P (F := F) m).IsStorable where
  st q d _ := match q with
    | 0 => (inferInstance : BI.Storable (upEmb : UEmb _ 𝕄) iprop(iPts m d ∗ tPts m d ∗ oPts d (m (oLoc d))))
  dn q d _ := match q with
    | 0 => (inferInstance : BI.Storable (upEmb : UEmb _ 𝕄) iprop(iPts m d ∗ tPts m d ∗ oPts d (want m d)))
  go q d _ i := match q with
    | 0 => (inferInstance : BI.Storable (upEmb : UEmb _ 𝕄)
        iprop(iSlab m d (Fin.cast nSub_zero i) ∗ tShare m d (Fin.cast nSub_zero i) ∗ oSlab d (Fin.cast nSub_zero i) (m (oLoc d))))
  td q d _ i := match q with
    | 0 => (inferInstance : BI.Storable (upEmb : UEmb _ 𝕄)
        iprop(iSlab m d (Fin.cast nSub_zero i) ∗ tShare m d (Fin.cast nSub_zero i) ∗ oSlab d (Fin.cast nSub_zero i) (want m d)))

end Cert.Proof.KB

end
-- ==== Proof.KBSlabs.lean ====
/-
  A vector subcore's part of the lookup kernel: its coordinates, its slabs as the kernel slices them, its
  semaphores and scratch buffers.

  Subcore `L 1` of the one SparseCore slices entries `256 · L 1 … 256 · L 1 + 255` off the list of row numbers and
  rows `256 · L 1 … 256 · L 1 + 255` off the result; both slices are the sixteenth slab number `L 1` of their
  array. The table it slices whole.
-/
import proofs.«211084_g50646254354559_cont_8to1_c_439_18_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The subcore's slab of the list and of the result, as the kernel slices them. -/
abbrev rectI (L : grid0.Coords) : Rect S4096 := Rect.unit (s := S4096) (k0_off1 L) S256.size (k0_off1_inb L)
abbrev rectO (L : grid0.Coords) : Rect S4096x128 := Rect.unit (s := S4096x128) (k0_off2 L) S256x128.size (k0_off2_inb L)
abbrev iK (L : grid0.Coords) : Memref sig .scVector .hbm S256 .i32 := (iV : Memref sig .scVector .hbm S4096 .i32).slice (rectI L) (fun _ => rfl)
abbrev oK (L : grid0.Coords) : Memref sig .scVector .hbm S256x128 .f32 := (oV : Memref sig .scVector .hbm S4096x128 .f32).slice (rectO L) (fun _ => rfl)
/-- The table as the kernel slices it: whole. -/
abbrev tK : Memref sig .scVector .hbm S1000000x128 .f32 :=
  (tV : Memref sig .scVector .hbm S1000000x128 .f32).slice (Rect.unit (s := S1000000x128) ![0, 0] S1000000x128.size inb_S1000000x128_S1000000x128_0_0) (fun _ => rfl)

theorem L0_val : (L 0).val = 0 := by
  have h : (L 0).val < 1 := (L 0).isLt
  omega

theorem rectI_eq : rectI L = slabI (jL L) := by
  unfold rectI slabI Rect.part Rect.block
  congr 1 <;> funext a
  · rw [k0_off1_eq]
    match a with
    | 0 => simp [Shape.partIx, Shape.partSize, L0_val L]; omega
  · match a with
    | 0 => simp [Shape.partSize]

theorem rectO_eq : rectO L = slabO (jL L) := by
  unfold rectO slabO Rect.part Rect.block
  congr 1 <;> funext a
  · rw [k0_off2_eq]
    match a with
    | 0 => simp [Shape.partIx, Shape.partSize, L0_val L]; omega
    | 1 => simp [Shape.partIx, Shape.partSize]
  · match a with
    | 0 => simp [Shape.partSize]
    | 1 => simp [Shape.partSize]

theorem set_iK : (iK L).view.set = setI (jL L) := by
  show ((iV : Memref sig .scVector .hbm S4096 .i32).view.slice (rectI L)).set = ((iV : Memref sig .scVector .hbm S4096 .i32).view.slice (slabI (jL L))).set
  rw [rectI_eq]
theorem set_oK : (oK L).view.set = setO (jL L) := by
  show ((oV : Memref sig .scVector .hbm S4096x128 .f32).view.slice (rectO L)).set = ((oV : Memref sig .scVector .hbm S4096x128 .f32).view.slice (slabO (jL L))).set
  rw [rectO_eq]

theorem pts_iK (f : Buf (Elt F) (iLoc d)) :
    ((iK L).view.loc (V d (cV L) (jV L)) ↦[(iK L).view.set]{fullShare} f : sProp 𝕄) = iLoc d ↦[setI (jL L)]{fullShare} f := by
  rw [set_iK]
theorem pts_oK (f : Buf (Elt F) (oLoc d)) :
    ((oK L).view.loc (V d (cV L) (jV L)) ↦[(oK L).view.set]{fullShare} f : sProp 𝕄) = oLoc d ↦[setO (jL L)]{fullShare} f := by
  rw [set_oK]
theorem pts_tV (q : PosShare TreeShare) (f : Buf (Elt F) (tLoc d)) :
    ((tV : Memref sig .scVector .hbm S1000000x128 .f32).view.loc (V d (cV L) (jV L)) ↦{q} f : sProp 𝕄) = tLoc d ↦{q} f := rfl
theorem pts_sI (f : Buf (Elt F) ((V d (cV L) (jV L)).loc cc0_scratch0)) :
    ((sI : Memref sig .scVector .vmem S256 .i32).view.loc (V d (cV L) (jV L)) ↦{fullShare} f : sProp 𝕄) = (V d (cV L) (jV L)).loc cc0_scratch0 ↦{fullShare} f := rfl
theorem pts_sR (f : Buf (Elt F) ((V d (cV L) (jV L)).loc cc0_scratch1)) :
    ((sR : Memref sig .scVector .vmem S256x128 .f32).view.loc (V d (cV L) (jV L)) ↦{fullShare} f : sProp 𝕄) = (V d (cV L) (jV L)).loc cc0_scratch1 ↦{fullShare} f := rfl

/-- The subcore's three DMA semaphores: the list fetch's, the gather's, the write-out's. -/
abbrev cA (d : Dev nD) (c : Fin τ.nSC) (i : Fin τ.nSub) : GSem nD τ sig := (V d c i, .dma cc0_scoped0.sem)
abbrev cG (d : Dev nD) (c : Fin τ.nSC) (i : Fin τ.nSub) : GSem nD τ sig := (V d c i, .dma cc0_scratch2.sem)
abbrev cB (d : Dev nD) (c : Fin τ.nSC) (i : Fin τ.nSub) : GSem nD τ sig := (V d c i, .dma cc0_scoped1.sem)

theorem ownSems0_V :
    (ownSems0 (V d (cV L) (jV L)) : sProp 𝕄)
      = iprop(semVal (cA d (cV L) (jV L)) 0 ∗ semVal (cG d (cV L) (jV L)) 0 ∗ semVal (cB d (cV L) (jV L)) 0
          ∗ bigSep ((((ownCells (V d (cV L) (jV L))).erase (cA d (cV L) (jV L))).erase (cG d (cV L) (jV L))).erase (cB d (cV L) (jV L)))
              fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cG]; decide, (mem_ownCells (g := cG d (cV L) (jV L))).mpr ⟨rfl, by
      show (SemLoc.dma cc0_scratch2.sem : SemLoc sig).isScoped .scVector = true; decide⟩⟩),
    SparseCore.bigSep_erase' (Finset.mem_erase.mpr ⟨by simp [cG, cB]; decide, Finset.mem_erase.mpr ⟨by simp [cA, cB]; decide,
      (mem_ownCells (g := cB d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Proof.KB

end
-- ==== Proof.KBValue.lean ====
/-
  What the write-out leaves in a subcore's slab of the result is the lookup.

  The subcore's buffer of rows, written whole with the gather's payload, holds at `(p, k)` the table's entry
  `(r p, k)`, `r p` the row that entry `p` of the fetched list names; the fetched list is entries
  `256 · L 1 + p` of the list of row numbers; and the write-out puts the buffer's `(p, k)` at
  `(256 · L 1 + p, k)` of the result. So the result's entry `(256 · L 1 + p, k)` is the table's entry
  `(x[256 · L 1 + p], k)`: the lookup there. Pure data movement: an equation between indices.
-/
import proofs.«211084_g50646254354559_cont_8to1_c_439_18_alg».proof.Proof.KBSlabs

noncomputable section

namespace Cert.Proof.KB

open Cert.Kernel Cert.Kernel.Gen

open Idealize.ShloMosaic Idealize.ShloMosaic.ValueIdx
open Idealize.ShloMosaic.SparseCore (S V T)
open Idealize.SL Idealize.SL.RA Idealize.SL.BI
open Idealize.SL.Sem

variable {F : FTy → Type}

variable (m : (ℓ : Loc nD τ sig) → Buf (Elt F) ℓ) (d : Dev nD) (L : grid0.Coords)

/-- Entry `p` of the subcore's slice of the list is entry `256 · L 1 + p` of the list, and row `p` of its slice of
    the result is row `256 · L 1 + p` of the result: the same number. -/
theorem emb_iK_val (p : Fin 256) : ((iK L).view.emb (ix1 p) 0).val = 256 * (L 1).val + p.val := by
  show ((iV : Memref sig .scVector .hbm S4096 .i32).view.emb ((rectI L).emb (ix1 p)) 0).val = _
  show (k0_off1 L) 0 + 1 * p.val = _
  rw [k0_off1_eq]
  simp [L0_val L]

theorem emb_oK_val0 (y : S256x128.Idx) : ((oK L).view.emb y 0).val = 256 * (L 1).val + (y 0).val := by
  show (k0_off2 L) 0 + 1 * (y 0).val = _
  rw [k0_off2_eq]
  simp [L0_val L]

theorem emb_oK_val1 (y : S256x128.Idx) : ((oK L).view.emb y 1).val = (y 1).val := by
  show (k0_off2 L) 1 + 1 * (y 1).val = _
  rw [k0_off2_eq]
  simp

theorem slab_value (hx : Cert.Spec.InRange (m (iLoc d)))
    (r : Fin (S256x128.size gathers_S1000000x128_S256x128.axis') → Fin (S1000000x128.size gathers_S1000000x128_S256x128.axis))
    (hr : ∀ p : Fin 256, (r p).val = (m (iLoc d) ((iK L).view.emb (ix1 p))).toNat)
    (fr : Buf (Elt F) ((V d (cV L) (jV L)).loc cc0_scratch1)) :
    ∀ i ∈ (oK L).view.set,
      (oK L).view.writes (Elt F) (m (oLoc d))
        [⟨Rect.whole S256x128, ReadAs.same.apply (View.read (Elt F) (sR : Memref sig .scVector .vmem S256x128 .f32).view
          ((sR : Memref sig .scVector .vmem S256x128 .f32).view.writes (Elt F) fr
            [⟨Rect.whole S256x128, SparseCore.gatherPayload gathers_S1000000x128_S256x128 (View.read (Elt F) tK.view (m (tLoc d))) r⟩]))⟩] i
      = want m d i := by
  intro i hi
  obtain ⟨y, -, rfl⟩ := Finset.mem_map.mp hi
  obtain ⟨p, k, rfl⟩ : ∃ (p : Fin 256) (k : Fin 128), y = ix2 p k := ⟨y 0, y 1, eq_ix2 y⟩
  generalize hy : (ix2 p k : S256x128.Idx) = y
  have e1 : (oK L).view.emb y = ((oK L).view.slice (Rect.whole S256x128)).emb y := by
    rw [View.emb_slice]
    show _ = (oK L).view.emb ((Rect.whole S256x128).emb y)
    rw [Rect.emb_whole_apply]
  rw [View.writes_singleton, e1, View.write_emb_of_mem _ _ (Finset.mem_univ y), cast_eq, ReadAs.apply_same]
  rw [← e1]
  have e2 : ((View.whole cc0_scratch1 : View sig .scVector .vmem S256x128 .f32).slice (Rect.whole S256x128)).emb y = y := by
    rw [View.emb_slice]
    show (View.whole cc0_scratch1 : View sig .scVector .vmem S256x128 .f32).emb ((Rect.whole S256x128).emb y) = y
    rw [Rect.emb_whole_apply]; rfl
  simp only [Memref.view_whole, View.read_whole]
  have e3 := View.write_emb_of_mem (Val := Elt F) (v := (View.whole cc0_scratch1 : View sig .scVector .vmem S256x128 .f32).slice (Rect.whole S256x128)) fr
    (SparseCore.gatherPayload gathers_S1000000x128_S256x128 (View.read (Elt F) tK.view (m (tLoc d))) r) (Finset.mem_univ y)
  rw [e2] at e3
  rw [View.writes_singleton, e3, cast_eq]
  unfold SparseCore.gatherPayload want Cert.Spec.lookup
  rw [View.read_apply, cast_eq]
  refine congrArg (m (tLoc d)) ?_
  subst hy
  have hrow : (iK L).view.emb (ix1 p) = ix1 ((oK L).view.emb (ix2 p k) 0) := by
    funext a; apply Fin.ext
    match a with
    | ⟨0, _⟩ => exact (emb_iK_val L p).trans (emb_oK_val0 L (ix2 p k)).symm
  funext a; apply Fin.ext
  match a with
  | ⟨0, _⟩ =>
    show 0 + 1 * (gathers_S1000000x128_S256x128.idx r (ix2 p k) 0).val = (Cert.Spec.rowOf (m (iLoc d)) ((oK L).view.emb (ix2 p k) 0)).val
    refine Eq.trans ?_ (Cert.Spec.rowOf_eq hx _).symm
    refine Eq.trans ?_ ((hr p).trans (congrArg (fun j => (m (iLoc d) j).toNat) hrow))
    have h0 := congrArg Fin.val (Shape.Gathers.idx_axis gathers_S1000000x128_S256x128 r (ix2 p k))
    rw [Nat.zero_add, Nat.one_mul]
    exact h0
  | ⟨1, _⟩ =>
    show 0 + 1 * (gathers_S1000000x128_S256x128.idx r (ix2 p k) 1).val = ((oK L).view.emb (ix2 p k) 1).val
    rw [emb_oK_val1, Shape.Gathers.idx_of_ne gathers_S1000000x128_S256x128 r (ix2 p k) 1 (by decide)]
    simp

end Cert.Proof.KB

end
-- ==== Proof.KBTile.lean ====
/-
  One vector subcore's task of the lookup kernel, run.

  The task makes three transfers, each waited for before the next: its slab of the list of row numbers into its
  list buffer; the table rows that list names into its row buffer (the indirect gather: served entry by entry,
  each entry's word must name a row of the table — it does, being a word of the list, all of whose words do);
  the row buffer onto its slab of the result. It starts from its slab of the list, a read share of the table,
  its slab of the result and its own scratch storage, and ends with the same, the slab of the result at the
  lookup.
-/
import proofs.«211084_g50646254354559_cont_8to1_c_439_18_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

variable [FloatOps F]

/-- The task on vector subcore `L 1`: the slab of the list fetched, the rows it names gathered, the gathered rows
    written to the slab of the result. -/
theorem tile_body (hF : (K (F := F)).Facts) (hx : Cert.Spec.InRange (m (iLoc d))) (O : CellTallies nD τ sig (HIx 1)) (W : Waits sig (HIx 1)) (hO : ∀ g, O g none = 0) :
    iprop(levAts (K (F := F)).L (K (F := F)).lev ∗ emp
        ∗ (iSlab m d (jL L) ∗ tShare m d (jL L) ∗ oSlab d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L iV (Memref.isWhole_whole _) tV (Memref.isWhole_whole _) oV (Memref.isWhole_whole _)
            sI (Memref.isWhole_whole _) sR (Memref.isWhole_whole _) cc0_scratch2 cc0_scoped0 cc0_scoped1)
          fun _ => iprop((iSlab m d (jL L) ∗ tShare m d (jL L) ∗ oSlab d (jL L) (want m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemG, HsemB, Hsems⟩, HO⟩
  ihave Hmw := ((K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Ht' := (Entails.of_eq (pts_tV (F := F) d L _ _).symm) $$ Ht
  ihave Hs' := (Entails.of_eq (pts_sI (F := F) d L _).symm) $$ Hs
  ihave Hr' := (Entails.of_eq (pts_sR (F := F) d L _).symm) $$ Hr
  sl_exec
  -- the fetched list's words are words of the list of row numbers: in range
  have hin : ∀ x : S256.Idx, BitVec.toNat (View.read (Elt F) (sI : Memref sig .scVector .vmem S256 .i32).view
      (View.write (Elt F) (sI : Memref sig .scVector .vmem S256 .i32).view fs (tile_body.sl.dma0 m d L) Finset.univ) x) < 1000000 := by
    intro x
    rw [View.write_whole_univ]
    simp only [Memref.view_whole, View.read_whole]
    unfold tile_body.sl.dma0
    rw [ReadAs.apply_same, View.read_apply, cast_eq]
    exact hx _
  sl_exec
  -- what the write-out left in the slab of the result is the lookup there
  have hval : ∀ i ∈ (oK L).view.set,
      (oK L).view.writes (Elt F) (m (oLoc d)) [⟨Rect.whole S256x128, tile_body.sl.dma0_1 m d L fs fr hin⟩] i = want m d i := by
    unfold tile_body.sl.dma0_1 tile_body.sl.gather0
    refine slab_value m d L hx _ (fun p => ?_) fr
    have hp : S256.rowMajor.symm (Fin.cast cc0_k_skel._proof_7.symm p) = ValueIdx.ix1 p :=
      (Equiv.symm_apply_eq _).mpr (Fin.ext (by rw [Shape.rowMajor_val_one]; rfl))
    show (View.read (Elt F) (sI : Memref sig .scVector .vmem S256 .i32).view
      (View.write (Elt F) (sI : Memref sig .scVector .vmem S256 .i32).view fs (tile_body.sl.dma0 m d L) Finset.univ)
      (S256.rowMajor.symm (Fin.cast cc0_k_skel._proof_7.symm p))).toNat = _
    rw [hp, View.write_whole_univ]
    simp only [Memref.view_whole, View.read_whole]
    unfold tile_body.sl.dma0
    rw [ReadAs.apply_same, View.read_apply, cast_eq]
  sl_step
  isplitl [Hi' Ht' Ho']
  · isplitl [Hi']; · iapply (Entails.of_eq (pts_iK (F := F) d L _)); iexact Hi'
    isplitl [Ht']; · iexact Ht'
    iapply (Entails.of_eq (pts_oK (F := F) d L _))
    iapply (Entails.of_eq (pointsTo_congr hval)); iexact Ho'
  isplitl [Hs' Hr' Hbufs]
  · isplitl [Hs']; · iexists _; iexact Hs'
    isplitl [Hr']; · iexists _; iexact Hr'
    iexact Hbufs
  isplitl [HsemA HsemG HsemB Hsems]
  · isplitl [HsemA]; · iexact HsemA
    isplitl [HsemG]; · iexact HsemG
    isplitl [HsemB]; · iexact HsemB
    iexact Hsems
  iexists (insert (SemLoc.dma cc0_scoped1.sem, (default : HIx 1)) (insert (SemLoc.dma cc0_scratch2.sem, (default : HIx 1))
    (insert (SemLoc.dma cc0_scoped0.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

end Tile

end Cert.Proof.KB

end
-- ==== Proof.KBLaunch.lean ====
/-
  The lookup kernel's program, run: every weakly fair execution of the device's threads ends, nothing faulting,
  with the result at the lookup and the two arguments unchanged.

  The one call hands the SparseCore the list, the table and the result whole. The list and the result are cut
  into the sixteen slabs, one per vector subcore; the table goes out in sixteen equal read shares. Each subcore's
  task brings back its slab of the list and its share of the table as they were and its slab of the result at
  the lookup; since every slab comes back at the SAME whole-array function, the slabs join into the result
  whole at that function, with nothing to choose. The kernel's own semaphores carry local transfers only, each
  waited for before the next is issued, so the launch element is the handshakes' alone.
-/
import proofs.«211084_g50646254354559_cont_8to1_c_439_18_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          iV (Memref.isWhole_whole _) tV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hx : ∀ d : Dev nD, Cert.Spec.InRange (m (iLoc d))) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hx d) O W hO).trans (wp_mono frame _ _ fun _ => obl_post)

/-! ## The slabs cover their arrays, disjointly; the shares make the whole -/

omit [FloatOps F] in
theorem setI_eq (i : Fin 16) : setI i = (slabI i).set := by
  show ((View.whole (main_arg0_scv : Ref sig .scVector)).slice (slabI i)).set = _
  rw [View.set_slice]; exact Finset.map_refl
omit [FloatOps F] in
theorem setO_eq (i : Fin 16) : setO i = (slabO i).set := by
  show ((View.whole (main_v0_scv : Ref sig .scVector)).slice (slabO i)).set = _
  rw [View.set_slice]; exact Finset.map_refl
omit [FloatOps F] in
theorem slabsI_disjoint : ∀ i ∈ (Finset.univ : Finset (Fin 16)), ∀ j ∈ (Finset.univ : Finset (Fin 16)), i ≠ j → Disjoint (setI i) (setI j) :=
  fun i _ j _ h => by rw [setI_eq, setI_eq]; exact Rect.part_disjoint hdivI h
omit [FloatOps F] in
theorem slabsO_disjoint : ∀ i ∈ (Finset.univ : Finset (Fin 16)), ∀ j ∈ (Finset.univ : Finset (Fin 16)), i ≠ j → Disjoint (setO i) (setO j) :=
  fun i _ j _ h => by rw [setO_eq, setO_eq]; exact Rect.part_disjoint hdivO h
omit [FloatOps F] in
theorem slabsI_cover : (Finset.univ : Finset (Fin 16)).biUnion setI = Finset.univ :=
  (Finset.biUnion_congr rfl fun i _ => setI_eq i).trans (Rect.biUnion_part hdivI)
omit [FloatOps F] in
theorem slabsO_cover : (Finset.univ : Finset (Fin 16)).biUnion setO = Finset.univ :=
  (Finset.biUnion_congr rfl fun i _ => setO_eq i).trans (Rect.biUnion_part hdivO)

omit [FloatOps F] in
theorem iPts_slabs (d : Dev nD) (f : Buf (Elt F) (iLoc d)) :
    (iLoc d ↦{fullShare} f : sProp 𝕄) = bigSep Finset.univ fun i : Fin 16 => iLoc d ↦[setI i]{fullShare} f := by
  rw [← pointsTo_biUnion Finset.univ (ℓ := iLoc d) setI slabsI_disjoint, slabsI_cover]; try rfl
omit [FloatOps F] in
theorem oPts_slabs (d : Dev nD) (f : Buf (Elt F) (oLoc d)) :
    (oLoc d ↦{fullShare} f : sProp 𝕄) = bigSep Finset.univ fun i : Fin 16 => oLoc d ↦[setO i]{fullShare} f := by
  rw [← pointsTo_biUnion Finset.univ (ℓ := oLoc d) setO slabsO_disjoint, slabsO_cover]; try rfl
omit [FloatOps F] in
theorem tPts_shares (d : Dev nD) (f : Buf (Elt F) (tLoc d)) :
    (tLoc d ↦{fullShare} f : sProp 𝕄) = bigSep Finset.univ fun i : Fin 16 => tLoc d ↦{shr i} f :=
  pointsTo_piecesOf Finset.univ f (by decide) fullShare

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(iPts m d ∗ tPts m d ∗ oPts d (m (oLoc d))) ⊢ |={Set.univ}=> iprop(
      (bigSep Finset.univ fun i : Fin ((K (F := F)).nSub 0) =>
        iprop(iSlab m d (Fin.cast nSub_zero i) ∗ tShare m d (Fin.cast nSub_zero i) ∗ oSlab d (Fin.cast nSub_zero i) (m (oLoc d))))
      ∗ ((bigSep Finset.univ fun i : Fin ((K (F := F)).nSub 0) =>
          iprop(iSlab m d (Fin.cast nSub_zero i) ∗ tShare m d (Fin.cast nSub_zero i) ∗ oSlab d (Fin.cast nSub_zero i) (want m d)))
          -∗ iprop(iPts m d ∗ tPts m d ∗ oPts d (want m d))))
  rw [bigSep_tasks (F := F) (fun i => iprop(iSlab m d i ∗ tShare m d i ∗ oSlab d i (m (oLoc d)))),
    bigSep_tasks (F := F) (fun i => iprop(iSlab m d i ∗ tShare m d i ∗ oSlab d i (want m d))), bigSep_sep', bigSep_sep', bigSep_sep', bigSep_sep']
  unfold iPts tPts oPts iSlab tShare oSlab
  rw [iPts_slabs, tPts_shares, oPts_slabs, oPts_slabs]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(iPts m d ∗ tPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ tPts m d ∗ oPts d (want m d)) :=
  bigSep_univ_of_subsingleton (0 : Fin 1)

/-- What @main leaves the claim: the arguments at their launch contents, the result at the lookup. -/
abbrev FIN (d : Dev nD) : sProp 𝕄 := iprop(iPts m d ∗ tPts m d ∗ oPts d (want m d))

/-- @main on device `d`'s TensorCore: the one call, from the list, the table and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ht, Ho⟩, -, -⟩, -⟩
  iapply ((K (F := F)).wp_run (D (F := F)) 𝒱 (EH := EH) (P := P m) κ d 0) $$ [Hst Hi Ht Ho]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  imodintro
  isplitl [Hst]; · iexact Hst
  isplitl [Hi]; · iexact Hi
  isplitl [Ht]; · iexact Ht
  iexact Ho

def fq (d : Dev nD) (s' : Phys nD τ sig (Elt F)) : Prop :=
  s'.mem.mem (oLoc d) = want m d ∧ s'.mem.mem (iLoc d) = m (iLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hi, Ht, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := want m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = want m c ∧ r.2.mem (iLoc c) = m (iLoc c) ∧ r.2.mem (tLoc c) = m (tLoc c)

/-- From a launch memory whose row numbers all name rows of the table: the program's threads run to the end,
    the result is the lookup, the arguments are unchanged. -/
theorem run_main [∀ e, Nonempty (Elt F e)] (hx : ∀ d : Dev nD, Cert.Spec.InRange (m (iLoc d))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KISetup.lean ====
/-
  The lookup kernel on the SparseCore: the names its proof is written over.

  One SparseCore runs the kernel; each of its sixteen vector subcores takes 256 consecutive entries of the
  list of row numbers (entries 256 i … 256 i + 255 for subcore i), fetches the table rows they name into a
  buffer of its own, and writes that buffer to rows 256 i … 256 i + 255 of the result. So the list and the
  result are cut into sixteen slabs along their first axis, one per subcore, and the table is read by all
  sixteen at once: each holds a sixteenth share of it, read-only.

  This module fixes the program as the launch theorem sees it, the ghost state (the handshakes' rounds beside
  the transfers' counters: the kernel's transfers are all local and each is waited for before the next is
  issued, so no schedule is needed), the slabs, and what the one call hands each subcore and takes back:
  its slab of the list, its share of the table, and its slab of the result — holding, on the way back, the
  looked-up rows.
-/
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic
import proofs.«211084_g50646254354559_cont_8to1_c_439_18_alg».proof.Proof.Gen.KernelIdeal
import proofs.«211084_g50646254354559_cont_8to1_c_439_18_alg».proof.Proof.Gen.KernelIdeal.Skeleton
import proofs.«211084_g50646254354559_cont_8to1_c_439_18_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The list of row numbers and the table (the arguments), the result, as locations of device `d`. -/
abbrev iLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

abbrev iV : Memref sig .scVector .hbm S4096 .i32 := Memref.whole main_arg0_scv
abbrev tV : Memref sig .scVector .hbm S1000000x128 .f32 := Memref.whole main_arg1_scv
abbrev oV : Memref sig .scVector .hbm S4096x128 .f32 := Memref.whole main_v0_scv
/-- A subcore's scratch: the fetched row numbers, the fetched rows. -/
abbrev sI : Memref sig .scVector .vmem S256 .i32 := Memref.whole cc0_scratch0
abbrev sR : Memref sig .scVector .vmem S256x128 .f32 := Memref.whole cc0_scratch1

/-- What the lookup makes of the launch memory of device `d`: row `i` of it is row `x[i]` of the table. -/
def want (d : Dev nD) : Buf (Elt F) (oLoc d) := Cert.Spec.lookup (m (iLoc d)) (m (tLoc d))

/-! ## The sixteen slabs -/

theorem hdivI : 16 ∣ S4096.size 0 := ⟨256, rfl⟩
theorem hdivO : 16 ∣ S4096x128.size 0 := ⟨256, rfl⟩
abbrev slabI (i : Fin 16) : Rect S4096 := Rect.part (s := S4096) (a₀ := 0) hdivI i
abbrev slabO (i : Fin 16) : Rect S4096x128 := Rect.part (s := S4096x128) (a₀ := 0) hdivO i
abbrev setI (i : Fin 16) : Finset S4096.Idx := ((iV : Memref sig .scVector .hbm S4096 .i32).view.slice (slabI i)).set
abbrev setO (i : Fin 16) : Finset S4096x128.Idx := ((oV : Memref sig .scVector .hbm S4096x128 .f32).view.slice (slabO i)).set

/-- A sixteenth of the whole: the share of the table each subcore reads through. -/
abbrev shr (i : Fin 16) : PosShare TreeShare := pieceOf fullShare 16 (by decide) i

/-! ## What the handshakes carry -/

abbrev iPts (d : Dev nD) : sProp 𝕄 := iLoc d ↦{fullShare} m (iLoc d)
abbrev tPts (d : Dev nD) : sProp 𝕄 := tLoc d ↦{fullShare} m (tLoc d)
abbrev oPts (d : Dev nD) (f : Buf (Elt F) (oLoc d)) : sProp 𝕄 := oLoc d ↦{fullShare} f
abbrev iSlab (d : Dev nD) (i : Fin 16) : sProp 𝕄 := iLoc d ↦[setI i]{fullShare} m (iLoc d)
abbrev tShare (d : Dev nD) (i : Fin 16) : sProp 𝕄 := tLoc d ↦{shr i} m (tLoc d)
abbrev oSlab (d : Dev nD) (i : Fin 16) (f : Buf (Elt F) (oLoc d)) : sProp 𝕄 := oLoc d ↦[setO i]{fullShare} f

/-- The one call takes the list, the table and the result whole; each subcore its slab of the list, its share of
    the table and its slab of the result; they come back with the result at the lookup. -/
def P : (K (F := F)).Pay (nD := nD) (Val := Elt F) (Name := ℕ) (U := UU) where
  st := fun q d _ => match q with | 0 => iprop(iPts m d ∗ tPts m d ∗ oPts d (m (oLoc d)))
  dn := fun q d _ => match q with | 0 => iprop(iPts m d ∗ tPts m d ∗ oPts d (want m d))
  go := fun q d _ i => match q with
    | 0 => iprop(iSlab m d (Fin.cast nSub_zero i) ∗ tShare m d (Fin.cast nSub_zero i) ∗ oSlab d (Fin.cast nSub_zero i) (m (oLoc d)))
  td := fun q d _ i => match q with
    | 0 => iprop(iSlab m d (Fin.cast nSub_zero i) ∗ tShare m d (Fin.cast nSub_zero i) ∗ oSlab d (Fin.cast nSub_zero i) (want m d))
  x := fun _ _ => iprop(emp)

instance P_storable : (P (F := F) m).IsStorable where
  st q d _ := match q with
    | 0 => (inferInstance : BI.Storable (upEmb : UEmb _ 𝕄) iprop(iPts m d ∗ tPts m d ∗ oPts d (m (oLoc d))))
  dn q d _ := match q with
    | 0 => (inferInstance : BI.Storable (upEmb : UEmb _ 𝕄) iprop(iPts m d ∗ tPts m d ∗ oPts d (want m d)))
  go q d _ i := match q with
    | 0 => (inferInstance : BI.Storable (upEmb : UEmb _ 𝕄)
        iprop(iSlab m d (Fin.cast nSub_zero i) ∗ tShare m d (Fin.cast nSub_zero i) ∗ oSlab d (Fin.cast nSub_zero i) (m (oLoc d))))
  td q d _ i := match q with
    | 0 => (inferInstance : BI.Storable (upEmb : UEmb _ 𝕄)
        iprop(iSlab m d (Fin.cast nSub_zero i) ∗ tShare m d (Fin.cast nSub_zero i) ∗ oSlab d (Fin.cast nSub_zero i) (want m d)))

end Cert.Proof.KI

end
-- ==== Proof.KISlabs.lean ====
/-
  A vector subcore's part of the lookup kernel: its coordinates, its slabs as the kernel slices them, its
  semaphores and scratch buffers.

  Subcore `L 1` of the one SparseCore slices entries `256 · L 1 … 256 · L 1 + 255` off the list of row numbers and
  rows `256 · L 1 … 256 · L 1 + 255` off the result; both slices are the sixteenth slab number `L 1` of their
  array. The table it slices whole.
-/
import proofs.«211084_g50646254354559_cont_8to1_c_439_18_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The subcore's slab of the list and of the result, as the kernel slices them. -/
abbrev rectI (L : grid0.Coords) : Rect S4096 := Rect.unit (s := S4096) (k0_off1 L) S256.size (k0_off1_inb L)
abbrev rectO (L : grid0.Coords) : Rect S4096x128 := Rect.unit (s := S4096x128) (k0_off2 L) S256x128.size (k0_off2_inb L)
abbrev iK (L : grid0.Coords) : Memref sig .scVector .hbm S256 .i32 := (iV : Memref sig .scVector .hbm S4096 .i32).slice (rectI L) (fun _ => rfl)
abbrev oK (L : grid0.Coords) : Memref sig .scVector .hbm S256x128 .f32 := (oV : Memref sig .scVector .hbm S4096x128 .f32).slice (rectO L) (fun _ => rfl)
/-- The table as the kernel slices it: whole. -/
abbrev tK : Memref sig .scVector .hbm S1000000x128 .f32 :=
  (tV : Memref sig .scVector .hbm S1000000x128 .f32).slice (Rect.unit (s := S1000000x128) ![0, 0] S1000000x128.size inb_S1000000x128_S1000000x128_0_0) (fun _ => rfl)

theorem L0_val : (L 0).val = 0 := by
  have h : (L 0).val < 1 := (L 0).isLt
  omega

theorem rectI_eq : rectI L = slabI (jL L) := by
  unfold rectI slabI Rect.part Rect.block
  congr 1 <;> funext a
  · rw [k0_off1_eq]
    match a with
    | 0 => simp [Shape.partIx, Shape.partSize, L0_val L]; omega
  · match a with
    | 0 => simp [Shape.partSize]

theorem rectO_eq : rectO L = slabO (jL L) := by
  unfold rectO slabO Rect.part Rect.block
  congr 1 <;> funext a
  · rw [k0_off2_eq]
    match a with
    | 0 => simp [Shape.partIx, Shape.partSize, L0_val L]; omega
    | 1 => simp [Shape.partIx, Shape.partSize]
  · match a with
    | 0 => simp [Shape.partSize]
    | 1 => simp [Shape.partSize]

theorem set_iK : (iK L).view.set = setI (jL L) := by
  show ((iV : Memref sig .scVector .hbm S4096 .i32).view.slice (rectI L)).set = ((iV : Memref sig .scVector .hbm S4096 .i32).view.slice (slabI (jL L))).set
  rw [rectI_eq]
theorem set_oK : (oK L).view.set = setO (jL L) := by
  show ((oV : Memref sig .scVector .hbm S4096x128 .f32).view.slice (rectO L)).set = ((oV : Memref sig .scVector .hbm S4096x128 .f32).view.slice (slabO (jL L))).set
  rw [rectO_eq]

theorem pts_iK (f : Buf (Elt F) (iLoc d)) :
    ((iK L).view.loc (V d (cV L) (jV L)) ↦[(iK L).view.set]{fullShare} f : sProp 𝕄) = iLoc d ↦[setI (jL L)]{fullShare} f := by
  rw [set_iK]
theorem pts_oK (f : Buf (Elt F) (oLoc d)) :
    ((oK L).view.loc (V d (cV L) (jV L)) ↦[(oK L).view.set]{fullShare} f : sProp 𝕄) = oLoc d ↦[setO (jL L)]{fullShare} f := by
  rw [set_oK]
theorem pts_tV (q : PosShare TreeShare) (f : Buf (Elt F) (tLoc d)) :
    ((tV : Memref sig .scVector .hbm S1000000x128 .f32).view.loc (V d (cV L) (jV L)) ↦{q} f : sProp 𝕄) = tLoc d ↦{q} f := rfl
theorem pts_sI (f : Buf (Elt F) ((V d (cV L) (jV L)).loc cc0_scratch0)) :
    ((sI : Memref sig .scVector .vmem S256 .i32).view.loc (V d (cV L) (jV L)) ↦{fullShare} f : sProp 𝕄) = (V d (cV L) (jV L)).loc cc0_scratch0 ↦{fullShare} f := rfl
theorem pts_sR (f : Buf (Elt F) ((V d (cV L) (jV L)).loc cc0_scratch1)) :
    ((sR : Memref sig .scVector .vmem S256x128 .f32).view.loc (V d (cV L) (jV L)) ↦{fullShare} f : sProp 𝕄) = (V d (cV L) (jV L)).loc cc0_scratch1 ↦{fullShare} f := rfl

/-- The subcore's three DMA semaphores: the list fetch's, the gather's, the write-out's. -/
abbrev cA (d : Dev nD) (c : Fin τ.nSC) (i : Fin τ.nSub) : GSem nD τ sig := (V d c i, .dma cc0_scoped0.sem)
abbrev cG (d : Dev nD) (c : Fin τ.nSC) (i : Fin τ.nSub) : GSem nD τ sig := (V d c i, .dma cc0_scratch2.sem)
abbrev cB (d : Dev nD) (c : Fin τ.nSC) (i : Fin τ.nSub) : GSem nD τ sig := (V d c i, .dma cc0_scoped1.sem)

theorem ownSems0_V :
    (ownSems0 (V d (cV L) (jV L)) : sProp 𝕄)
      = iprop(semVal (cA d (cV L) (jV L)) 0 ∗ semVal (cG d (cV L) (jV L)) 0 ∗ semVal (cB d (cV L) (jV L)) 0
          ∗ bigSep ((((ownCells (V d (cV L) (jV L))).erase (cA d (cV L) (jV L))).erase (cG d (cV L) (jV L))).erase (cB d (cV L) (jV L)))
              fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cG]; decide, (mem_ownCells (g := cG d (cV L) (jV L))).mpr ⟨rfl, by
      show (SemLoc.dma cc0_scratch2.sem : SemLoc sig).isScoped .scVector = true; decide⟩⟩),
    SparseCore.bigSep_erase' (Finset.mem_erase.mpr ⟨by simp [cG, cB]; decide, Finset.mem_erase.mpr ⟨by simp [cA, cB]; decide,
      (mem_ownCells (g := cB d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Proof.KI

end
-- ==== Proof.KIValue.lean ====
/-
  What the write-out leaves in a subcore's slab of the result is the lookup.

  The subcore's buffer of rows, written whole with the gather's payload, holds at `(p, k)` the table's entry
  `(r p, k)`, `r p` the row that entry `p` of the fetched list names; the fetched list is entries
  `256 · L 1 + p` of the list of row numbers; and the write-out puts the buffer's `(p, k)` at
  `(256 · L 1 + p, k)` of the result. So the result's entry `(256 · L 1 + p, k)` is the table's entry
  `(x[256 · L 1 + p], k)`: the lookup there. Pure data movement: an equation between indices.
-/
import proofs.«211084_g50646254354559_cont_8to1_c_439_18_alg».proof.Proof.KISlabs

noncomputable section

namespace Cert.Proof.KI

open Cert.KernelIdeal Cert.KernelIdeal.Gen

open Idealize.ShloMosaic Idealize.ShloMosaic.ValueIdx
open Idealize.ShloMosaic.SparseCore (S V T)
open Idealize.SL Idealize.SL.RA Idealize.SL.BI
open Idealize.SL.Sem

variable {F : FTy → Type}

variable (m : (ℓ : Loc nD τ sig) → Buf (Elt F) ℓ) (d : Dev nD) (L : grid0.Coords)

/-- Entry `p` of the subcore's slice of the list is entry `256 · L 1 + p` of the list, and row `p` of its slice of
    the result is row `256 · L 1 + p` of the result: the same number. -/
theorem emb_iK_val (p : Fin 256) : ((iK L).view.emb (ix1 p) 0).val = 256 * (L 1).val + p.val := by
  show ((iV : Memref sig .scVector .hbm S4096 .i32).view.emb ((rectI L).emb (ix1 p)) 0).val = _
  show (k0_off1 L) 0 + 1 * p.val = _
  rw [k0_off1_eq]
  simp [L0_val L]

theorem emb_oK_val0 (y : S256x128.Idx) : ((oK L).view.emb y 0).val = 256 * (L 1).val + (y 0).val := by
  show (k0_off2 L) 0 + 1 * (y 0).val = _
  rw [k0_off2_eq]
  simp [L0_val L]

theorem emb_oK_val1 (y : S256x128.Idx) : ((oK L).view.emb y 1).val = (y 1).val := by
  show (k0_off2 L) 1 + 1 * (y 1).val = _
  rw [k0_off2_eq]
  simp

theorem slab_value (hx : Cert.Spec.InRange (m (iLoc d)))
    (r : Fin (S256x128.size gathers_S1000000x128_S256x128.axis') → Fin (S1000000x128.size gathers_S1000000x128_S256x128.axis))
    (hr : ∀ p : Fin 256, (r p).val = (m (iLoc d) ((iK L).view.emb (ix1 p))).toNat)
    (fr : Buf (Elt F) ((V d (cV L) (jV L)).loc cc0_scratch1)) :
    ∀ i ∈ (oK L).view.set,
      (oK L).view.writes (Elt F) (m (oLoc d))
        [⟨Rect.whole S256x128, ReadAs.same.apply (View.read (Elt F) (sR : Memref sig .scVector .vmem S256x128 .f32).view
          ((sR : Memref sig .scVector .vmem S256x128 .f32).view.writes (Elt F) fr
            [⟨Rect.whole S256x128, SparseCore.gatherPayload gathers_S1000000x128_S256x128 (View.read (Elt F) tK.view (m (tLoc d))) r⟩]))⟩] i
      = want m d i := by
  intro i hi
  obtain ⟨y, -, rfl⟩ := Finset.mem_map.mp hi
  obtain ⟨p, k, rfl⟩ : ∃ (p : Fin 256) (k : Fin 128), y = ix2 p k := ⟨y 0, y 1, eq_ix2 y⟩
  generalize hy : (ix2 p k : S256x128.Idx) = y
  have e1 : (oK L).view.emb y = ((oK L).view.slice (Rect.whole S256x128)).emb y := by
    rw [View.emb_slice]
    show _ = (oK L).view.emb ((Rect.whole S256x128).emb y)
    rw [Rect.emb_whole_apply]
  rw [View.writes_singleton, e1, View.write_emb_of_mem _ _ (Finset.mem_univ y), cast_eq, ReadAs.apply_same]
  rw [← e1]
  have e2 : ((View.whole cc0_scratch1 : View sig .scVector .vmem S256x128 .f32).slice (Rect.whole S256x128)).emb y = y := by
    rw [View.emb_slice]
    show (View.whole cc0_scratch1 : View sig .scVector .vmem S256x128 .f32).emb ((Rect.whole S256x128).emb y) = y
    rw [Rect.emb_whole_apply]; rfl
  simp only [Memref.view_whole, View.read_whole]
  have e3 := View.write_emb_of_mem (Val := Elt F) (v := (View.whole cc0_scratch1 : View sig .scVector .vmem S256x128 .f32).slice (Rect.whole S256x128)) fr
    (SparseCore.gatherPayload gathers_S1000000x128_S256x128 (View.read (Elt F) tK.view (m (tLoc d))) r) (Finset.mem_univ y)
  rw [e2] at e3
  rw [View.writes_singleton, e3, cast_eq]
  unfold SparseCore.gatherPayload want Cert.Spec.lookup
  rw [View.read_apply, cast_eq]
  refine congrArg (m (tLoc d)) ?_
  subst hy
  have hrow : (iK L).view.emb (ix1 p) = ix1 ((oK L).view.emb (ix2 p k) 0) := by
    funext a; apply Fin.ext
    match a with
    | ⟨0, _⟩ => exact (emb_iK_val L p).trans (emb_oK_val0 L (ix2 p k)).symm
  funext a; apply Fin.ext
  match a with
  | ⟨0, _⟩ =>
    show 0 + 1 * (gathers_S1000000x128_S256x128.idx r (ix2 p k) 0).val = (Cert.Spec.rowOf (m (iLoc d)) ((oK L).view.emb (ix2 p k) 0)).val
    refine Eq.trans ?_ (Cert.Spec.rowOf_eq hx _).symm
    refine Eq.trans ?_ ((hr p).trans (congrArg (fun j => (m (iLoc d) j).toNat) hrow))
    have h0 := congrArg Fin.val (Shape.Gathers.idx_axis gathers_S1000000x128_S256x128 r (ix2 p k))
    rw [Nat.zero_add, Nat.one_mul]
    exact h0
  | ⟨1, _⟩ =>
    show 0 + 1 * (gathers_S1000000x128_S256x128.idx r (ix2 p k) 1).val = ((oK L).view.emb (ix2 p k) 1).val
    rw [emb_oK_val1, Shape.Gathers.idx_of_ne gathers_S1000000x128_S256x128 r (ix2 p k) 1 (by decide)]
    simp

end Cert.Proof.KI

end
-- ==== Proof.KITile.lean ====
/-
  One vector subcore's task of the lookup kernel, run.

  The task makes three transfers, each waited for before the next: its slab of the list of row numbers into its
  list buffer; the table rows that list names into its row buffer (the indirect gather: served entry by entry,
  each entry's word must name a row of the table — it does, being a word of the list, all of whose words do);
  the row buffer onto its slab of the result. It starts from its slab of the list, a read share of the table,
  its slab of the result and its own scratch storage, and ends with the same, the slab of the result at the
  lookup.
-/
import proofs.«211084_g50646254354559_cont_8to1_c_439_18_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

variable [FloatOps F]

/-- The task on vector subcore `L 1`: the slab of the list fetched, the rows it names gathered, the gathered rows
    written to the slab of the result. -/
theorem tile_body (hF : (K (F := F)).Facts) (hx : Cert.Spec.InRange (m (iLoc d))) (O : CellTallies nD τ sig (HIx 1)) (W : Waits sig (HIx 1)) (hO : ∀ g, O g none = 0) :
    iprop(levAts (K (F := F)).L (K (F := F)).lev ∗ emp
        ∗ (iSlab m d (jL L) ∗ tShare m d (jL L) ∗ oSlab d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L iV (Memref.isWhole_whole _) tV (Memref.isWhole_whole _) oV (Memref.isWhole_whole _)
            sI (Memref.isWhole_whole _) sR (Memref.isWhole_whole _) cc0_scratch2 cc0_scoped0 cc0_scoped1)
          fun _ => iprop((iSlab m d (jL L) ∗ tShare m d (jL L) ∗ oSlab d (jL L) (want m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemG, HsemB, Hsems⟩, HO⟩
  ihave Hmw := ((K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Ht' := (Entails.of_eq (pts_tV (F := F) d L _ _).symm) $$ Ht
  ihave Hs' := (Entails.of_eq (pts_sI (F := F) d L _).symm) $$ Hs
  ihave Hr' := (Entails.of_eq (pts_sR (F := F) d L _).symm) $$ Hr
  sl_exec
  -- the fetched list's words are words of the list of row numbers: in range
  have hin : ∀ x : S256.Idx, BitVec.toNat (View.read (Elt F) (sI : Memref sig .scVector .vmem S256 .i32).view
      (View.write (Elt F) (sI : Memref sig .scVector .vmem S256 .i32).view fs (tile_body.sl.dma0 m d L) Finset.univ) x) < 1000000 := by
    intro x
    rw [View.write_whole_univ]
    simp only [Memref.view_whole, View.read_whole]
    unfold tile_body.sl.dma0
    rw [ReadAs.apply_same, View.read_apply, cast_eq]
    exact hx _
  sl_exec
  -- what the write-out left in the slab of the result is the lookup there
  have hval : ∀ i ∈ (oK L).view.set,
      (oK L).view.writes (Elt F) (m (oLoc d)) [⟨Rect.whole S256x128, tile_body.sl.dma0_1 m d L fs fr hin⟩] i = want m d i := by
    unfold tile_body.sl.dma0_1 tile_body.sl.gather0
    refine slab_value m d L hx _ (fun p => ?_) fr
    have hp : S256.rowMajor.symm (Fin.cast cc0_k_skel._proof_7.symm p) = ValueIdx.ix1 p :=
      (Equiv.symm_apply_eq _).mpr (Fin.ext (by rw [Shape.rowMajor_val_one]; rfl))
    show (View.read (Elt F) (sI : Memref sig .scVector .vmem S256 .i32).view
      (View.write (Elt F) (sI : Memref sig .scVector .vmem S256 .i32).view fs (tile_body.sl.dma0 m d L) Finset.univ)
      (S256.rowMajor.symm (Fin.cast cc0_k_skel._proof_7.symm p))).toNat = _
    rw [hp, View.write_whole_univ]
    simp only [Memref.view_whole, View.read_whole]
    unfold tile_body.sl.dma0
    rw [ReadAs.apply_same, View.read_apply, cast_eq]
  sl_step
  isplitl [Hi' Ht' Ho']
  · isplitl [Hi']; · iapply (Entails.of_eq (pts_iK (F := F) d L _)); iexact Hi'
    isplitl [Ht']; · iexact Ht'
    iapply (Entails.of_eq (pts_oK (F := F) d L _))
    iapply (Entails.of_eq (pointsTo_congr hval)); iexact Ho'
  isplitl [Hs' Hr' Hbufs]
  · isplitl [Hs']; · iexists _; iexact Hs'
    isplitl [Hr']; · iexists _; iexact Hr'
    iexact Hbufs
  isplitl [HsemA HsemG HsemB Hsems]
  · isplitl [HsemA]; · iexact HsemA
    isplitl [HsemG]; · iexact HsemG
    isplitl [HsemB]; · iexact HsemB
    iexact Hsems
  iexists (insert (SemLoc.dma cc0_scoped1.sem, (default : HIx 1)) (insert (SemLoc.dma cc0_scratch2.sem, (default : HIx 1))
    (insert (SemLoc.dma cc0_scoped0.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

end Tile

end Cert.Proof.KI

end
-- ==== Proof.KILaunch.lean ====
/-
  The lookup kernel's program, run: every weakly fair execution of the device's threads ends, nothing faulting,
  with the result at the lookup and the two arguments unchanged.

  The one call hands the SparseCore the list, the table and the result whole. The list and the result are cut
  into the sixteen slabs, one per vector subcore; the table goes out in sixteen equal read shares. Each subcore's
  task brings back its slab of the list and its share of the table as they were and its slab of the result at
  the lookup; since every slab comes back at the SAME whole-array function, the slabs join into the result
  whole at that function, with nothing to choose. The kernel's own semaphores carry local transfers only, each
  waited for before the next is issued, so the launch element is the handshakes' alone.
-/
import proofs.«211084_g50646254354559_cont_8to1_c_439_18_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          iV (Memref.isWhole_whole _) tV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hx : ∀ d : Dev nD, Cert.Spec.InRange (m (iLoc d))) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hx d) O W hO).trans (wp_mono frame _ _ fun _ => obl_post)

/-! ## The slabs cover their arrays, disjointly; the shares make the whole -/

omit [FloatOps F] in
theorem setI_eq (i : Fin 16) : setI i = (slabI i).set := by
  show ((View.whole (main_arg0_scv : Ref sig .scVector)).slice (slabI i)).set = _
  rw [View.set_slice]; exact Finset.map_refl
omit [FloatOps F] in
theorem setO_eq (i : Fin 16) : setO i = (slabO i).set := by
  show ((View.whole (main_v0_scv : Ref sig .scVector)).slice (slabO i)).set = _
  rw [View.set_slice]; exact Finset.map_refl
omit [FloatOps F] in
theorem slabsI_disjoint : ∀ i ∈ (Finset.univ : Finset (Fin 16)), ∀ j ∈ (Finset.univ : Finset (Fin 16)), i ≠ j → Disjoint (setI i) (setI j) :=
  fun i _ j _ h => by rw [setI_eq, setI_eq]; exact Rect.part_disjoint hdivI h
omit [FloatOps F] in
theorem slabsO_disjoint : ∀ i ∈ (Finset.univ : Finset (Fin 16)), ∀ j ∈ (Finset.univ : Finset (Fin 16)), i ≠ j → Disjoint (setO i) (setO j) :=
  fun i _ j _ h => by rw [setO_eq, setO_eq]; exact Rect.part_disjoint hdivO h
omit [FloatOps F] in
theorem slabsI_cover : (Finset.univ : Finset (Fin 16)).biUnion setI = Finset.univ :=
  (Finset.biUnion_congr rfl fun i _ => setI_eq i).trans (Rect.biUnion_part hdivI)
omit [FloatOps F] in
theorem slabsO_cover : (Finset.univ : Finset (Fin 16)).biUnion setO = Finset.univ :=
  (Finset.biUnion_congr rfl fun i _ => setO_eq i).trans (Rect.biUnion_part hdivO)

omit [FloatOps F] in
theorem iPts_slabs (d : Dev nD) (f : Buf (Elt F) (iLoc d)) :
    (iLoc d ↦{fullShare} f : sProp 𝕄) = bigSep Finset.univ fun i : Fin 16 => iLoc d ↦[setI i]{fullShare} f := by
  rw [← pointsTo_biUnion Finset.univ (ℓ := iLoc d) setI slabsI_disjoint, slabsI_cover]; try rfl
omit [FloatOps F] in
theorem oPts_slabs (d : Dev nD) (f : Buf (Elt F) (oLoc d)) :
    (oLoc d ↦{fullShare} f : sProp 𝕄) = bigSep Finset.univ fun i : Fin 16 => oLoc d ↦[setO i]{fullShare} f := by
  rw [← pointsTo_biUnion Finset.univ (ℓ := oLoc d) setO slabsO_disjoint, slabsO_cover]; try rfl
omit [FloatOps F] in
theorem tPts_shares (d : Dev nD) (f : Buf (Elt F) (tLoc d)) :
    (tLoc d ↦{fullShare} f : sProp 𝕄) = bigSep Finset.univ fun i : Fin 16 => tLoc d ↦{shr i} f :=
  pointsTo_piecesOf Finset.univ f (by decide) fullShare

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(iPts m d ∗ tPts m d ∗ oPts d (m (oLoc d))) ⊢ |={Set.univ}=> iprop(
      (bigSep Finset.univ fun i : Fin ((K (F := F)).nSub 0) =>
        iprop(iSlab m d (Fin.cast nSub_zero i) ∗ tShare m d (Fin.cast nSub_zero i) ∗ oSlab d (Fin.cast nSub_zero i) (m (oLoc d))))
      ∗ ((bigSep Finset.univ fun i : Fin ((K (F := F)).nSub 0) =>
          iprop(iSlab m d (Fin.cast nSub_zero i) ∗ tShare m d (Fin.cast nSub_zero i) ∗ oSlab d (Fin.cast nSub_zero i) (want m d)))
          -∗ iprop(iPts m d ∗ tPts m d ∗ oPts d (want m d))))
  rw [bigSep_tasks (F := F) (fun i => iprop(iSlab m d i ∗ tShare m d i ∗ oSlab d i (m (oLoc d)))),
    bigSep_tasks (F := F) (fun i => iprop(iSlab m d i ∗ tShare m d i ∗ oSlab d i (want m d))), bigSep_sep', bigSep_sep', bigSep_sep', bigSep_sep']
  unfold iPts tPts oPts iSlab tShare oSlab
  rw [iPts_slabs, tPts_shares, oPts_slabs, oPts_slabs]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(iPts m d ∗ tPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ tPts m d ∗ oPts d (want m d)) :=
  bigSep_univ_of_subsingleton (0 : Fin 1)

/-- What @main leaves the claim: the arguments at their launch contents, the result at the lookup. -/
abbrev FIN (d : Dev nD) : sProp 𝕄 := iprop(iPts m d ∗ tPts m d ∗ oPts d (want m d))

/-- @main on device `d`'s TensorCore: the one call, from the list, the table and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ht, Ho⟩, -, -⟩, -⟩
  iapply ((K (F := F)).wp_run (D (F := F)) 𝒱 (EH := EH) (P := P m) κ d 0) $$ [Hst Hi Ht Ho]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  imodintro
  isplitl [Hst]; · iexact Hst
  isplitl [Hi]; · iexact Hi
  isplitl [Ht]; · iexact Ht
  iexact Ho

def fq (d : Dev nD) (s' : Phys nD τ sig (Elt F)) : Prop :=
  s'.mem.mem (oLoc d) = want m d ∧ s'.mem.mem (iLoc d) = m (iLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hi, Ht, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := want m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = want m c ∧ r.2.mem (iLoc c) = m (iLoc c) ∧ r.2.mem (tLoc c) = m (tLoc c)

/-- From a launch memory whose row numbers all name rows of the table: the program's threads run to the end,
    the result is the lookup, the arguments are unchanged. -/
theorem run_main [∀ e, Nonempty (Elt F e)] (hx : ∀ d : Dev nD, Cert.Spec.InRange (m (iLoc d))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.PreRange.lean ====
/-
  The input-domain precondition, read back as a range of row numbers.

  The precondition is the conjunction of two `all`-reductions: one over the table (every entry finite) and one over
  the list of row numbers (every word `v` satisfies `0 ≤ v` and `v ≤ 999999`, both read as signed 32-bit words).
  Only the second half matters for a lookup, which moves data and computes nothing. A reduction by `and` that came
  out 1 met a 1 at every position, so at every position both comparisons hold; a signed word that is nonnegative
  has its top bit clear, hence its signed and unsigned readings agree, and the unsigned reading is then at most
  999999, that is, below 1000000. This is exactly `InRange`.
-/
import proofs.«211084_g50646254354559_cont_8to1_c_439_18_alg».proof.Pre_input_domain
import proofs.«211084_g50646254354559_cont_8to1_c_439_18_alg».proof.Proof.Gen.Pre_input_domain
import proofs.«211084_g50646254354559_cont_8to1_c_439_18_alg».proof.Proof.Spec
import Idealize.ShloMosaic.Lib.ReduceAll

namespace Cert.Spec

open Idealize.ShloMosaic Idealize.ShloMosaic.ValueIdx

/-- A 32-bit word between 0 and 999999 as a signed number is below 1000000 as an unsigned one. -/
theorem toNat_lt_of_signed_range (v : BitVec 32)
    (h0 : IntOp.cmpi .sge v 0#32 = 1#1) (h1 : IntOp.cmpi .sle v 999999#32 = 1#1) : v.toNat < 1000000 := by
  rw [IntOp.cmpi_sge] at h0
  rw [IntOp.cmpi_sle] at h1
  have e := BitVec.toInt_eq_toNat_cond v
  have hv := v.isLt
  have z : (0#32 : BitVec 32).toInt = 0 := by decide
  have n : (999999#32 : BitVec 32).toInt = 999999 := by decide
  rw [z] at h0
  rw [n] at h1
  omega

/-- The scalar shape has one index. -/
theorem scalar_idx_eq (a b : Cert.Pre_input_domain.S_.Idx) : a = b := (eq_ix0 a).trans (eq_ix0 b).symm

/-- Under the input-domain precondition every word of the list names a row of the table. -/
theorem inRange_of_pre {F : FTy → Type} [FloatOps F] (x : IVec Cert.Pre_input_domain.S4096 32)
    (tbl : FVec F Cert.Pre_input_domain.S1000000x128 .f32)
    (h : Cert.Pre_input_domain.fn (F := F) x tbl = fun _ => 1#1) : Cert.Spec.InRange x := by
  intro i
  have e := congrFun h ix0
  dsimp only [Cert.Pre_input_domain.fn] at e
  have e2 := (IntOp.andi_eq_one.1 e).2
  have e3 := Host.reduce_andi_eq_one _ _ _ _ _ e2 i (scalar_idx_eq _ _)
  have e4 := IntOp.andi_eq_one.1 e3
  exact toNat_lt_of_signed_range (x i) e4.1 e4.2

end Cert.Spec
-- ==== Proof.RefRun.lean ====
/-
  The reference's run, read back as one function of its two arguments.

  The reference is `take(table, x, axis = 0)`: its entry function calls one auxiliary function, which calls a second (a
  three-way select). Substituting each callee's body at its call site, the whole program is a straight line of
  twenty-three tensor operations, each writing a buffer of its own:

    * the list of row numbers is compared with zero, and where a word is negative (as a signed number) the number of
      rows, 1000000, is added to it (`wrapIdx`); the list is then laid out as a column (`idxCol`);
    * a mask says, per position, whether the adjusted word lies between 0 and 999999 as a signed number: the two
      comparisons, their conjunction, and a reduction by `and` along the column's unit axis (`mask`);
    * a gather reads, per position, the table's row the adjusted word names (`rows`);
    * a final select keeps the gathered row where the mask is set and puts a not-a-number constant elsewhere (`result`).

  A straight line of tensor operations always terminates, and each buffer ends holding the composition of the
  operations that lead to it, applied to the launch contents of the arguments; the arguments themselves are never
  written. `run` says exactly that, with the composed term kept behind the name `result`.
-/
import proofs.«211084_g50646254354559_cont_8to1_c_439_18_alg».proof.ReferenceIdeal
import proofs.«211084_g50646254354559_cont_8to1_c_439_18_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term, stage by stage -/

/-- A negative row number counts from the end: where the word is below zero as a signed number, the number of rows
    is added to it; any other word is kept. -/
def wrapIdx (x : IVec S4096 32) : IVec S4096 32 :=
  select (cmpi .slt x (broadcastInDim S4096 ![] bcast_S_S4096 (constantI S_ 32 0#32)))
    (addi x (broadcastInDim S4096 ![] bcast_S_S4096 (constantI S_ 32 1000000#32))) x

/-- The adjusted row numbers as a column of 4096 one-word rows. -/
def idxCol (x : IVec S4096 32) : IVec S4096x1 32 :=
  broadcastInDim S4096x1 ![0] bcast_S4096_S4096x1_0 (wrapIdx x)

/-- Per position: is the adjusted row number between 0 and 999999 (signed)? The conjunction of the two comparisons,
    reduced by `and` along the column's unit axis. -/
def mask (x : IVec S4096 32) : IVec S4096 1 :=
  Host.reduce IntOp.andi
    (andi (cmpi .sge (idxCol x) (broadcastInDim S4096x1 ![] bcast_S_S4096x1 (constantI S_ 32 0#32)))
      (cmpi .sle (idxCol x)
        (broadcastInDim S4096x1 ![0, 1] bcast_S1x1_S4096x1_0_1
          (broadcastInDim S1x1 ![1] bcast_S1_S1x1_1 (constantI S1 32 999999#32)))))
    (constantI S_ 1 1#1) reducesTo_S4096x1_S4096_d1 h_S_

/-- Per position, the table's row that the adjusted row number names. -/
def rows (x : IVec S4096 32) (tbl : FVec F S1000000x128 .f32) : FVec F S4096x128 .f32 :=
  Host.gather gather_S1000000x128_S4096x1_S4096x128_1_0_n_n_0_1_1128 tbl (idxCol x)

/-- What the reference returns: the gathered row where the mask is set, a not-a-number constant elsewhere. -/
def result (x : IVec S4096 32) (tbl : FVec F S1000000x128 .f32) : FVec F S4096x128 .f32 :=
  select (broadcastInDim S4096x128 ![0] bcast_S4096_S4096x128_0 (mask x)) (rows x tbl)
    (broadcastInDim S4096x128 ![] bcast_S_S4096x128 (constant S_ .f32 0x7FC00000#32))

/-! ## The program as a straight line -/

/-- The entry function's twenty-three operations in order, the two callees' bodies substituted at their call
    sites: the first callee's six, the second callee's select, then the first callee's remaining sixteen. -/
abbrev ops : List (HloOp τ sig (Elt F)) :=
  [ TRef.nullary main_call0.c (constantI S_ 32 0#32),
    TRef.unary main_call0.c main_call0.v0 (broadcastInDim S4096 ![] bcast_S_S4096),
    TRef.binary (.of main_arg0) main_call0.v0 main_call0.v1 (cmpi .slt),
    TRef.nullary main_call0.c_0 (constantI S_ 32 1000000#32),
    TRef.unary main_call0.c_0 main_call0.v2 (broadcastInDim S4096 ![] bcast_S_S4096),
    TRef.binary (.of main_arg0) main_call0.v2 main_call0.v3 addi,
    TRef.ternary main_call0.v1 main_call0.v3 (.of main_arg0) main_call0.call0.v0 select,
    TRef.unary main_call0.call0.v0 main_call0.v5 (broadcastInDim S4096x1 ![0] bcast_S4096_S4096x1_0),
    TRef.nullary main_call0.c_1 (constantI S1 32 999999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1) main_call0.v5 main_call0.v13 (fun x i => Host.gather gather_S1000000x128_S4096x1_S4096x128_1_0_n_n_0_1_1128 x i),
    TRef.unary main_call0.v12 main_call0.v14 (broadcastInDim S4096x128 ![0] bcast_S4096_S4096x128_0),
    TRef.nullary main_call0.cst (constant S_ .f32 0x7FC00000#32),
    TRef.unary main_call0.cst main_call0.v15 (broadcastInDim S4096x128 ![] bcast_S_S4096x128),
    TRef.ternary main_call0.v14 main_call0.v13 main_call0.v15 main_call0.v16 select ]

set_option maxRecDepth 1024 in
/-- The entry function is that straight line: the callees' definitions unfolded at their calls, both sides are one
    chain of steps once sequencing is reassociated. -/
theorem main_eq (c : Dev nD) : main (F := F) c = seq ops := by
  simp only [main, fn_take.body, fn_where.body, seq, bind_assoc, pure_bind]

attribute [local irreducible] Host.reduce Host.gather in
set_option maxRecDepth 8192 in
/-- The fold of the line at the result buffer is `result` of the two arguments' contents: each operation's result
    is read at the buffer it writes and passed over at every other. The reduction and the gather stay folded: the
    equation never looks inside them. -/
theorem out_eq (V : Valuation τ sig (Elt F)) :
    after ops V (main_v0 : DevRef τ sig) = result (V (main_arg0 : DevRef τ sig)) (V (main_arg1 : DevRef τ sig)) := by
  after_results_simp
  rfl

/-- No operation of the line writes the list of row numbers. -/
theorem arg0_eq (V : Valuation τ sig (Elt F)) :
    after ops V (main_arg0 : DevRef τ sig) = V (main_arg0 : DevRef τ sig) := by
  simp only [after_cons, after_nil]
  rfl

/-- No operation of the line writes the table. -/
theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, for any float values, from any memory with zero counters: every weakly fair execution of the
    reference terminates with the result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefLookup.lean ====
/-
  The reference's composed term is the lookup, on row numbers that are in range.

  Read at the result index `(i, k)`, stage by stage, for a list `x` all of whose words are below 1000000:

    * a word below 1000000 has its top bit clear, so it is nonnegative as a signed number: the comparison with zero
      fails, the select keeps the word, and the adjusted row number at `i` is `x[i]` itself;
    * the adjusted word is then between 0 and 999999 as a signed number, so both comparisons of the mask hold at
      every position; a reduction by `and`, started at 1, over words that are all 1 is 1: the mask is set everywhere;
    * the gather takes one row number per position (the column's single entry), reads it as a signed number, clamps
      it into `[0, 999999]`, and returns entry `k` of that row of the table; for a word below 1000000 the signed
      reading is the unsigned one and the clamp does nothing, so the row is `x[i]`;
    * the final select, its mask bit set, returns the gathered entry; the not-a-number constant is never chosen.

  Hence entry `(i, k)` of the result is entry `(x[i], k)` of the table: the lookup of the specification, where the
  reduction of the row number modulo 1000000 does nothing on such a word.
-/
import proofs.«211084_g50646254354559_cont_8to1_c_439_18_alg».proof.Proof.RefRun
import proofs.«211084_g50646254354559_cont_8to1_c_439_18_alg».proof.Proof.Spec
import Idealize.ShloMosaic.Lib.ValueIdx
import Idealize.ShloMosaic.Lib.ReduceAll
import Idealize.ShloMosaic.PureOps.Reduce

noncomputable section

namespace Cert.ReferenceIdeal.RefValue

open Cert.ReferenceIdeal Cert.ReferenceIdeal.Gen Cert.ReferenceIdeal.RefRun Idealize.ShloMosaic Idealize.ShloMosaic.ValueIdx

variable {F : FTy → Type} [FloatOps F]

/-! ## Words below 1000000 -/

/-- Such a word is not negative as a signed number. -/
theorem not_slt_zero (v : BitVec 32) (hv : v.toNat < 1000000) : ¬ IntOp.cmpi .slt v 0#32 = 1#1 := by
  rw [IntOp.cmpi_slt]
  have e := BitVec.toInt_eq_toNat_cond v
  have z : (0#32 : BitVec 32).toInt = 0 := by decide
  rw [z]
  omega

/-- It is at least zero as a signed number. -/
theorem sge_zero (v : BitVec 32) (hv : v.toNat < 1000000) : IntOp.cmpi .sge v 0#32 = 1#1 := by
  rw [IntOp.cmpi_sge]
  have e := BitVec.toInt_eq_toNat_cond v
  have z : (0#32 : BitVec 32).toInt = 0 := by decide
  rw [z]
  omega

/-- It is at most 999999 as a signed number. -/
theorem sle_max (v : BitVec 32) (hv : v.toNat < 1000000) : IntOp.cmpi .sle v 999999#32 = 1#1 := by
  rw [IntOp.cmpi_sle]
  have e := BitVec.toInt_eq_toNat_cond v
  have n : (999999#32 : BitVec 32).toInt = 999999 := by decide
  rw [n]
  omega

/-- A word read as a signed number and clamped into `[0, 999999]`: a row of the table. -/
def clampRow (v : BitVec 32) : Fin 1000000 := ⟨min v.toInt.toNat 999999, by omega⟩

/-- On a word below 1000000 the signed reading is the unsigned one and the clamp does nothing. -/
theorem clampRow_val (v : BitVec 32) (hv : v.toNat < 1000000) : (clampRow v).val = v.toNat := by
  show min v.toInt.toNat 999999 = v.toNat
  have e := BitVec.toInt_eq_toNat_cond v
  omega

/-! ## The stages at an index -/

/-- The adjusted row number is the word itself. -/
theorem wrapIdx_apply (x : IVec S4096 32) (i : S4096.Idx) (hv : (x i).toNat < 1000000) : wrapIdx x i = x i := by
  show Scalar.select (IntOp.cmpi .slt (x i) 0#32) _ (x i) = x i
  rw [eq_zero_of_ne_one (not_slt_zero _ hv), select_zero]

/-- Every entry of the column of adjusted row numbers is below 1000000. -/
theorem idxCol_lt {x : IVec S4096 32} (hx : Cert.Spec.InRange x) (j : S4096x1.Idx) : (idxCol x j).toNat < 1000000 := by
  show (wrapIdx x _).toNat < 1000000
  rw [wrapIdx_apply x _ (hx _)]
  exact hx _

/-- Entry `i` of the column is `x[i]`. -/
theorem idxCol_apply {x : IVec S4096 32} (hx : Cert.Spec.InRange x) (i : Fin 4096) (z : Fin 1) :
    idxCol x (ix2 i z) = x (ix1 i) := by
  have e : idxCol x (ix2 i z) = wrapIdx x (ix1 i) := by
    show wrapIdx x _ = wrapIdx x (ix1 i)
    congr 1
    funext a
    match a with
    | ⟨0, _⟩ => rfl
  rw [e, wrapIdx_apply x _ (hx _)]

/-- A left fold by `and`, started at 1, over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    have e : IntOp.andi 1#1 1#1 = 1#1 := by decide
    rw [e]
    exact foldl_andi_one f l fun n hn => h n (List.mem_cons_of_mem _ hn)

/-- The mask is set at every position. -/
theorem mask_apply {x : IVec S4096 32} (hx : Cert.Spec.InRange x) (i : S4096.Idx) : mask x i = 1#1 := by
  unfold mask
  rw [Host.reduce_eq_foldl]
  refine foldl_andi_one _ _ fun n _ => ?_
  show IntOp.andi (IntOp.cmpi .sge (idxCol x n) 0#32) (IntOp.cmpi .sle (idxCol x n) 999999#32) = 1#1
  exact IntOp.andi_eq_one.2 ⟨sge_zero _ (idxCol_lt hx n), sle_max _ (idxCol_lt hx n)⟩

/-- The gather at `(i, k)`: entry `k` of the table's row named by the column's entry `i`, read signed and clamped. -/
theorem gather_apply {α : Type} (tbl : S1000000x128.Idx → α) (idx : IVec S4096x1 32) (i : Fin 4096) (k : Fin 128) :
    Host.gather gather_S1000000x128_S4096x1_S4096x128_1_0_n_n_0_1_1128 tbl idx (ix2 i k) = tbl (ix2 (clampRow (idx (ix2 i 0))) k) := by
  unfold Host.gather
  congr 1
  funext a
  refine Fin.ext ?_
  match a with
  | ⟨0, _⟩ =>
    show gather_S1000000x128_S4096x1_S4096x128_1_0_n_n_0_1_1128.start (ix2 i k) idx 0 + gather_S1000000x128_S4096x1_S4096x128_1_0_n_n_0_1_1128.batchCoord (ix2 i k) 0 + gather_S1000000x128_S4096x1_S4096x128_1_0_n_n_0_1_1128.offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x128_S4096x1_S4096x128_1_0_n_n_0_1_1128.startIndexMap from List.mem_singleton.mpr rfl)]
    have hsi : gather_S1000000x128_S4096x1_S4096x128_1_0_n_n_0_1_1128.siIdx (ix2 i k) ⟨List.idxOf (0 : Fin 2) gather_S1000000x128_S4096x1_S4096x128_1_0_n_n_0_1_1128.startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, _⟩ =>
    show gather_S1000000x128_S4096x1_S4096x128_1_0_n_n_0_1_1128.start (ix2 i k) idx 1 + gather_S1000000x128_S4096x1_S4096x128_1_0_n_n_0_1_1128.batchCoord (ix2 i k) 1 + gather_S1000000x128_S4096x1_S4096x128_1_0_n_n_0_1_1128.offCoord (ix2 i k) 1 = k.val
    rw [GatherDims.batchCoord_eq_zero _ _ _ List.not_mem_nil]
    unfold GatherDims.start
    rw [dif_neg (show ¬ (1 : Fin 2) ∈ gather_S1000000x128_S4096x1_S4096x128_1_0_n_n_0_1_1128.startIndexMap by decide)]
    unfold GatherDims.offCoord
    rw [dif_pos (show (1 : Fin 2) ∈ gather_S1000000x128_S4096x1_S4096x128_1_0_n_n_0_1_1128.sKept by decide)]
    simp only [Nat.zero_add]
    rfl

/-! ## The result is the lookup -/

/-- On a list of row numbers all below 1000000, the reference's composed term is the lookup of the specification. -/
theorem result_eq_lookup (x : IVec S4096 32) (tbl : FVec F S1000000x128 .f32) (hx : Cert.Spec.InRange x) :
    result x tbl = Cert.Spec.lookup x tbl := by
  funext j
  obtain ⟨i, k, rfl⟩ : ∃ (i : Fin 4096) (k : Fin 128), j = ix2 i k := ⟨j 0, j 1, eq_ix2 j⟩
  show Scalar.select (mask x _) (rows x tbl (ix2 i k)) _ = tbl (ix2 (Cert.Spec.rowOf x i) k)
  rw [mask_apply hx, select_one]
  unfold rows
  rw [gather_apply, idxCol_apply hx]
  have e : clampRow (x (ix1 i)) = Cert.Spec.rowOf x i :=
    Fin.ext (by rw [clampRow_val _ (hx _), Cert.Spec.rowOf_eq hx])
  rw [e]

end Cert.ReferenceIdeal.RefValue

end
-- ==== Proof.RefValue.lean ====
/-
  The reference under the input-domain precondition: its result is the lookup.

  Every weakly fair execution of the reference terminates with its result buffer at the operations' composed term of
  the two arguments' launch contents and with the arguments unchanged (the run). The precondition says every word of
  the list of row numbers lies between 0 and 999999 as a signed number, hence is below 1000000 as an unsigned one (its
  other half, that the table's entries are finite, is not needed: a lookup moves data and computes nothing). On such a
  list the composed term is the lookup of the specification: entry `(i, k)` of the result is entry `(x[i], k)` of
  the table. So the reference ends with the lookup of its arguments in its result buffer.
-/
import proofs.«211084_g50646254354559_cont_8to1_c_439_18_alg».proof.Defs
import proofs.«211084_g50646254354559_cont_8to1_c_439_18_alg».proof.Proof.Gen.Pre_input_domain
import proofs.«211084_g50646254354559_cont_8to1_c_439_18_alg».proof.Proof.Gen.ReferenceIdeal
import proofs.«211084_g50646254354559_cont_8to1_c_439_18_alg».proof.Proof.Spec
import proofs.«211084_g50646254354559_cont_8to1_c_439_18_alg».proof.Proof.PreRange
import proofs.«211084_g50646254354559_cont_8to1_c_439_18_alg».proof.Proof.RefRun
import proofs.«211084_g50646254354559_cont_8to1_c_439_18_alg».proof.Proof.RefLookup

noncomputable section

namespace Cert.ReferenceIdeal.RefValue

open Idealize.ShloMosaic Idealize.ShloMosaic.TcCoe Idealize.SL.Sem

/-- At the ideal float values, from any memory with zero counters whose arguments satisfy the input-domain
    precondition: every weakly fair execution of the reference terminates with the lookup of the arguments in the
    result buffer and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v0)
          = Cert.Spec.lookup (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c =>
      ⟨(h c).1.trans (result_eq_lookup _ _ (Cert.Spec.inRange_of_pre _ _ (hpre c))), (h c).2.1, (h c).2.2⟩)
    (Cert.ReferenceIdeal.RefRun.run (F := Ideal) m ρ)

end Cert.ReferenceIdeal.RefValue

end
-- ==== Proof.lean ====
/-
  An embedding lookup on the SparseCore against `jnp.take`: the five claims.

  Kernel. One SparseCore's sixteen vector subcores each take 256 consecutive entries of the list `x` of 4096 row
  numbers, fetch the table rows those entries name into a buffer of their own by one indirect gather, and write
  the buffer to the matching 256 rows of the result: `out[i, k] = table[x[i], k]`.
  Reference. `take(table, x, axis = 0)`: a negative row number counts from the end, a row number out of
  `[0, 999999]` yields not-a-number, any other yields that row: on row numbers in range, `table[x[i], k]` again.
  The precondition puts every row number in `[0, 999999]`. That is what makes the kernel's threads run to the
  end at all — an indirect gather is served entry by entry, and an entry naming no row would never be served —
  and it is where the reference's masking does nothing. The lookup moves data and computes nothing, so the two
  results are equal entry by entry with no arithmetic on the extended reals; that the table's entries are
  finite is never used.

  The kernel's run (the body of one subcore at a symbolic place, the launch of the sixteen, the result read back
  as one whole-array function) is proved once for any float instance and used at the word-level instance for the
  printed kernel's frame and at the ideal instance for the idealized kernel's frame and for the value claim. The
  idealization rewrote nothing: the kernel has no float arithmetic.
-/
import proofs.«211084_g50646254354559_cont_8to1_c_439_18_alg».proof.Defs
import proofs.«211084_g50646254354559_cont_8to1_c_439_18_alg».proof.Proof.Gen.Kernel
import proofs.«211084_g50646254354559_cont_8to1_c_439_18_alg».proof.Proof.Gen.Kernel.Skeleton
import proofs.«211084_g50646254354559_cont_8to1_c_439_18_alg».proof.Proof.Gen.KernelIdeal
import proofs.«211084_g50646254354559_cont_8to1_c_439_18_alg».proof.Proof.Gen.KernelIdeal.Skeleton
import proofs.«211084_g50646254354559_cont_8to1_c_439_18_alg».proof.Proof.Gen.ReferenceIdeal
import proofs.«211084_g50646254354559_cont_8to1_c_439_18_alg».proof.Proof.Gen.Pre_input_domain
import proofs.«211084_g50646254354559_cont_8to1_c_439_18_alg».proof.Proof.KBLaunch
import proofs.«211084_g50646254354559_cont_8to1_c_439_18_alg».proof.Proof.KILaunch
import proofs.«211084_g50646254354559_cont_8to1_c_439_18_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs to the end and leaves the list and the table as they were: its run, the result's
    value dropped. -/
theorem frame_k : Cert.frame_Kernel := fun m ρ hpre =>
  (θ_run Cert.Kernel.defs _ _).mono (fun _ h c => ⟨(h c).2.1, (h c).2.2⟩)
    (KB.run_main (F := Bits) m ρ (fun d => Cert.Spec.inRange_of_pre _ _ (hpre d)))

/-- The same for the idealized kernel. -/
theorem frame_ki : Cert.frame_KernelIdeal := fun m ρ hpre =>
  (θ_run Cert.KernelIdeal.defs _ _).mono (fun _ h c => ⟨(h c).2.1, (h c).2.2⟩)
    (KI.run_main (F := Ideal) m ρ (fun d => Cert.Spec.inRange_of_pre _ _ (hpre d)))

/-- The reference runs to the end and leaves its arguments as they were. -/
theorem frame_ri : Cert.frame_ReferenceIdeal := fun m ρ hpre =>
  (θ_run _ _ _).mono (fun _ h c => ⟨(h c).2.1, (h c).2.2⟩) (Cert.ReferenceIdeal.RefValue.run m ρ hpre)

/-- The idealization rewrote no operation. -/
theorem preserves : Cert.preserves_Kernel_KernelIdeal := trivial

/-- From memories that agree on the list and the table, both programs end with the lookup of those two arrays
    in their result: the same function of the same arguments. -/
theorem algebraic : Cert.algebraic_KernelIdeal_ReferenceIdeal := by
  intro m ρ m' ρ' hpre hag
  refine ⟨fun c => KI.want m c, ?_, ?_⟩
  · exact (θ_run Cert.KernelIdeal.defs _ _).mono (fun _ h c => h c)
      (KI.run_main (F := Ideal) m ρ (fun d => Cert.Spec.inRange_of_pre _ _ (hpre d)))
  · have hpre' : Cert.Pre_ReferenceIdeal m' := fun c => by rw [(hag c).1, (hag c).2]; exact hpre c
    refine (θ_run _ _ _).mono (fun _ h c => ⟨(h c).1.trans ?_, (h c).2.1, (h c).2.2⟩)
      (Cert.ReferenceIdeal.RefValue.run m' ρ' hpre')
    rw [(hag c).1, (hag c).2]
    rfl

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
